-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S1600000 32) (main_arg2 : IVec S1600000 32) (main_arg3 : FVec F S1600000 .f32) (main_arg4 : FVec F S64x64 .f32) (main_arg5 : FVec F S64 .f32) (main_arg6 : FVec F S64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 29
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S64x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 61
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S64x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S_, .f32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000, .f32⟩
  | .hbm, ⟨40, _⟩ => ⟨S100000x1, .f32⟩
  | .hbm, ⟨41, _⟩ => ⟨S_, .f32⟩
  | .hbm, ⟨42, _⟩ => ⟨S100000x1, .f32⟩
  | .hbm, ⟨43, _⟩ => ⟨S100000x1, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call0_cst : Ref sig .tc := ⟨.hbm, 58, rfl⟩
abbrev main_call0_v0 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The function both programs compute, on the extended reals, entry by entry.

  From the aggregated features `A` ([100000, 64]), the weight as it enters the product `Wt` ([64, 64], contracted
  along its first axis), a bias `b`, a scale `g` and a shift `s` (each a function of the lane j < 64):

    h r j   = (∑ k, A (r, k) · Wt (k, j)) + b j                         the linear layer, row r
    μ r     = (∑ j, h r j) / 64                                         the row's mean
    σ² r    = (∑ j, (h r j − μ r)²) / 64                                its variance
    out r j = max ((h r j − μ r) · rsqrt (σ² r + ε) · g j + s j, 0)     normalised, scaled, shifted, rectified

  Division, `rsqrt` and the three literals (64, ε, 0) are those of the extended reals as both programs read them; the
  literals are kept as their words, the same on both sides. Nothing here depends on how rows are grouped into blocks.
-/
import Idealize.ShloMosaic.PureOps.Ideal
import Idealize.ShloMosaic.Lib.ValueIdx

noncomputable section

namespace Cert.GcnSpec

open Idealize.ShloMosaic Idealize.ShloMosaic.ValueIdx

/-- The row length as the programs write it: the f32 word of 64. -/
abbrev c64 : EReal := Ideal.ofBits .f32 0x42800000#32
/-- The variance offset as the programs write it: the f32 word nearest 1e-5. -/
abbrev eps : EReal := Ideal.ofBits .f32 0x3727C5AC#32
/-- The rectifier's floor: the f32 zero word. -/
abbrev floor0 : EReal := Ideal.ofBits .f32 0x00000000#32

/-- The mean of a row of 64 entries. -/
def mean (h : Fin 64 → EReal) : EReal := Ideal.div (∑ k : Fin 64, h k) c64

/-- The variance of a row: the mean of the squared deviations from its mean. -/
def variance (h : Fin 64 → EReal) : EReal :=
  Ideal.div (∑ k : Fin 64, (h k - mean h) * (h k - mean h)) c64

/-- A row normalised by its mean and variance, scaled by `g`, shifted by `s`, and rectified. -/
def normRelu (h g s : Fin 64 → EReal) (j : Fin 64) : EReal :=
  max ((h j - mean h) * Ideal.rsqrt (variance h + eps) * g j + s j) floor0

/-- Row `r` of the linear layer: the aggregated row against the weight's columns, plus the bias. -/
def lin (A : (⟨2, ![100000, 64]⟩ : Shape).Idx → EReal) (Wt : (⟨2, ![64, 64]⟩ : Shape).Idx → EReal)
    (b : Fin 64 → EReal) (r : Fin 100000) (j : Fin 64) : EReal :=
  (∑ k : Fin 64, A (ix2 r k) * Wt (ix2 k j)) + b j

/-- The whole result array, entry by entry. -/
def G (A : (⟨2, ![100000, 64]⟩ : Shape).Idx → EReal) (Wt : (⟨2, ![64, 64]⟩ : Shape).Idx → EReal)
    (b g s : Fin 64 → EReal) : (⟨2, ![100000, 64]⟩ : Shape).Idx → EReal :=
  fun i => normRelu (lin A Wt b (i 0)) g s (i 1)

/-- At an entry written by its coordinates. -/
theorem G_apply (A : (⟨2, ![100000, 64]⟩ : Shape).Idx → EReal) (Wt : (⟨2, ![64, 64]⟩ : Shape).Idx → EReal)
    (b g s : Fin 64 → EReal) (r : Fin 100000) (j : Fin 64) :
    G A Wt b g s (ix2 r j) = normRelu (lin A Wt b r) g s j := rfl

end Cert.GcnSpec

end
-- ==== Proof.LibKeepdims.lean ====
/-
  Row reductions that keep the reduced axis as a unit axis, read at an entry on the extended reals.

  A kernel that takes `sum(x, axis=-1, keepdims=True)` of an [a, b] block does three layout steps around the
  arithmetic: the lane sum into [a], a cast of [a] to the column shape [a, 1], and later a broadcast of an [a, 1]
  column back over the b lanes. Read at an entry written by its coordinates:
    * the cast [a] → [a, 1] at (i, u) is the vector at i;
    * the broadcast [a, 1] → [a, b] at (p, c) is the column at (p, 0);
    * the lane sum of an [a, b] array at i is the sum over k of the array at (i, k);
    * a [1, b] row cast to its own shape and broadcast over a rows reads, at (p, c), the row at (0, c).
  Over any extents a, b.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type} {a b : ℕ}

/-- An `[a]` vector cast to the column shape `[a, 1]` reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast over `b` lanes reads, at `(p, c)`, the column at `(p, 0)`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, at row `i`, is the sum over `k` of the array at `(i, k)`. -/
theorem laneSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax; apply Fin.ext
  match ax with
  | ⟨0, _⟩ => rfl
  | ⟨1, _⟩ => rfl

/-- The lane sum kept as a column: the `[a]` sums cast to `[a, 1]` read, at `(i, u)`, the sum over `k` of the array at `(i, k)`. -/
theorem keepdimsSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (hc : (⟨1, ![a]⟩ : Shape).ShapeCasts ⟨2, ![a, 1]⟩)
    (i : Fin a) (u : Fin 1) :
    shapeCast ⟨2, ![a, 1]⟩ (multiReduction .add [1] ⟨1, ![a]⟩ src 0x00000000#32 h hφ hacc) hc (ix2 i u)
      = ∑ k : Fin b, src (ix2 i k) :=
  (shapeCast_a_a1_apply _ hc i u).trans (laneSum_apply src h hφ hacc i)

/-- A `[1, b]` row, cast to its own shape and broadcast over `a` rows, reads at `(p, c)` the row at `(0, c)`. -/
theorem rowBroadcast_apply (v : (⟨2, ![1, b]⟩ : Shape).Idx → α) (hc : (⟨2, ![1, b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix2 (0 : Fin 1) c) := by
  rw [shapeCast_self]
  exact broadcastTo_1b_ab_apply v h p c

end Cert.LibKeepdims
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«143825_j69415261437959_1_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.Payload.lean ====
/-
  What the kernel body stores, entry by entry, as a function of the blocks it loads.

  The body loads a [5000, 64] block of aggregated features, the [64, 64] transposed weight and three [1, 64] rows
  (bias, scale, shift), and stores one [5000, 64] block. At entry (p, q) of that block the stored value is the
  specification's row function applied to row p of the block's linear layer,

      h j = (∑ k, block (p, k) · Wt (k, j)) + bias (0, j),

  with the scale and shift rows read at (0, ·): the body's matrix product into a zero accumulator is that sum (the
  rounding to bf16 on the way in is the identity on extended reals), its two lane sums kept as columns are the sums
  over the 64 lanes of row p, and every other operation acts entry by entry.
-/
import proofs.«143825_j69415261437959_1_alg».proof.Proof.Gen.KernelIdeal.Skeleton
import proofs.«143825_j69415261437959_1_alg».proof.Proof.Spec
import proofs.«143825_j69415261437959_1_alg».proof.Proof.LibKeepdims
import proofs.«143825_j69415261437959_1_alg».proof.Proof.LibMatmul2D
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.GcnSpec

/-- The reciprocal square root of a vector acts entry by entry. -/
theorem rsqrt_apply {s : Shape} {φ : FTy} (a : FVec Ideal s φ) (i : s.Idx) : rsqrt a i = Ideal.rsqrt (a i) := rfl

/-- A scalar literal on the extended reals is the value of its word. -/
theorem scalar_ofBits (φ : FTy) (w : BitVec φ.bits) : Scalar.ofBits (F := Ideal) φ w = Ideal.ofBits φ w := rfl

/-- The body's matrix product at (p, q): row p of the left block against column q of the right one. -/
theorem blockProduct_apply (y0 : FVec Ideal S5000x64 .bf16) (y1 : FVec Ideal S64x64 .bf16) (p : Fin 5000) (q : Fin 64) :
    matmul dot_S5000x64_S64x64_S5000x64_1_0_0_1_n_n none y0 y1 (constant S5000x64 .f32 0x00000000#32) (ix2 p q)
      = ∑ k : Fin 64, y0 (ix2 p k) * y1 (ix2 k q) :=
  Cert.LibMatmul2D.rows_cols _ none y0 y1 p q

/-- THE STORED VALUE at (p, q): the specification's row function of row p of the block's linear layer. -/
theorem pay_apply (x0 : Vec Ideal S5000x64 .f32) (x1 : Vec Ideal S64x64 .f32) (x2 x3 x4 : Vec Ideal S1x64 .f32)
    (p : Fin 5000) (q : Fin 64) :
    k0_pay1 (F := Ideal) x0 x1 x2 x3 x4 (ix2 p q)
      = normRelu (fun j => (∑ k : Fin 64, x0 (ix2 p k) * x1 (ix2 k j)) + x2 (ix2 (0 : Fin 1) j))
          (fun j => x3 (ix2 (0 : Fin 1) j)) (fun j => x4 (ix2 (0 : Fin 1) j)) q := by
  unfold k0_pay1
  simp only [maximumf_apply, addf_apply, mulf_apply, subf_apply, divf_apply, rsqrt_apply, broadcast_apply,
    broadcastTo_1b_ab_apply, Cert.LibKeepdims.broadcastTo_a1_ab_apply, Cert.LibKeepdims.shapeCast_a_a1_apply,
    blockProduct_apply, truncf_apply, shapeCast_self, scalar_ofBits]
  -- each lane sum in turn (the row's sum; the sum of its squared deviations; the row's sum inside the latter)
  repeat (
    rw [Cert.LibKeepdims.laneSum_apply]
    try simp only [maximumf_apply, addf_apply, mulf_apply, subf_apply, divf_apply, rsqrt_apply, broadcast_apply,
      broadcastTo_1b_ab_apply, Cert.LibKeepdims.broadcastTo_a1_ab_apply, Cert.LibKeepdims.shapeCast_a_a1_apply,
      blockProduct_apply, truncf_apply, shapeCast_self, scalar_ofBits])
  rfl

end Cert.KernelIdeal.Payload

end
-- ==== Proof.Blocks.lean ====
/-
  From the kernel's blocks to its result array.

  The grid has 20 points. Point t stages rows 5000·t … 5000·t + 4999 of the aggregated features (all 64 lanes), the
  whole transposed weight and the three [1, 64] rows, and writes back rows 5000·t … 5000·t + 4999 of the result.
  So what point t writes back is block t of ONE function of the arrays as the kernel finds them: entry (p, q) of the
  block is the specification at row 5000·t + p, lane q, because the row of the linear layer the body forms from its
  blocks is that row of the whole arrays. The 20 blocks cover all 100000 rows (row r lies in block r / 5000), so the
  result array after the run is the specification everywhere.
-/
import proofs.«143825_j69415261437959_1_alg».proof.Proof.Gen.KernelIdeal.Value
import proofs.«143825_j69415261437959_1_alg».proof.Proof.Payload
import proofs.«143825_j69415261437959_1_alg».proof.Proof.Spec
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (m : (ℓ : Loc nD τ sig) → Buf (Elt Ideal) ℓ) (ρ : Dev nD → PrngReg)

/-- The body loads and stores its whole staging buffers: every rectangle starts at offsets (0, 0). -/
theorem zero_offsets : (![0, 0] : Fin 2 → Nat) = fun _ => 0 := funext fun a => by fin_cases a <;> rfl

/-- The index maps over the grid: the feature and result windows move one block of rows per point, the weight and
    the three rows stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Where a block's entry sits in its array -/

/-- Entry (p, k) of the feature block at point t sits at row 5000·t + p, lane k. -/
theorem featBlock_emb (t : Fin cfg0.N) (p : Fin 5000) (k : Fin 64) (r : Fin 100000)
    (hr : r.val = t.val * 5000 + p.val) :
    ((cfg0.win 0).blk t).view.emb (ix2 p k) = (ix2 r k : S100000x64.Idx) := by
  obtain ⟨e0, e1, -⟩ := index_maps t
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- The weight block at every point is the whole weight array. -/
theorem wtBlock_emb (t : Fin cfg0.N) (k j : Fin 64) :
    ((cfg0.win 1).blk t).view.emb (ix2 k j) = (ix2 k j : S64x64.Idx) := by
  obtain ⟨-, -, e0, e1, -⟩ := index_maps t
  funext a; apply Fin.ext
  match a with
  | ⟨0, _⟩ => show win0_1.index t (0 : Fin 2) * 64 + 1 * k.val = k.val; omega
  | ⟨1, _⟩ => show win0_1.index t (1 : Fin 2) * 64 + 1 * j.val = j.val; omega

/-- The bias block at every point is the whole bias row … -/
theorem biasBlock_emb (t : Fin cfg0.N) (j : Fin 64) :
    ((cfg0.win 2).blk t).view.emb (ix2 (0 : Fin 1) j) = (ix2 (0 : Fin 1) j : S1x64.Idx) := by
  obtain ⟨-, -, -, -, e0, e1, -⟩ := index_maps t
  funext a; apply Fin.ext
  match a with
  | ⟨0, _⟩ => show win0_2.index t (0 : Fin 2) * 1 + 1 * 0 = 0; omega
  | ⟨1, _⟩ => show win0_2.index t (1 : Fin 2) * 64 + 1 * j.val = j.val; omega

/-- … the scale block the whole scale row … -/
theorem scaleBlock_emb (t : Fin cfg0.N) (j : Fin 64) :
    ((cfg0.win 3).blk t).view.emb (ix2 (0 : Fin 1) j) = (ix2 (0 : Fin 1) j : S1x64.Idx) := by
  obtain ⟨-, -, -, -, -, -, e0, e1, -⟩ := index_maps t
  funext a; apply Fin.ext
  match a with
  | ⟨0, _⟩ => show win0_3.index t (0 : Fin 2) * 1 + 1 * 0 = 0; omega
  | ⟨1, _⟩ => show win0_3.index t (1 : Fin 2) * 64 + 1 * j.val = j.val; omega

/-- … and the shift block the whole shift row. -/
theorem shiftBlock_emb (t : Fin cfg0.N) (j : Fin 64) :
    ((cfg0.win 4).blk t).view.emb (ix2 (0 : Fin 1) j) = (ix2 (0 : Fin 1) j : S1x64.Idx) := by
  obtain ⟨-, -, -, -, -, -, -, -, e0, e1, -⟩ := index_maps t
  funext a; apply Fin.ext
  match a with
  | ⟨0, _⟩ => show win0_4.index t (0 : Fin 2) * 1 + 1 * 0 = 0; omega
  | ⟨1, _⟩ => show win0_4.index t (1 : Fin 2) * 64 + 1 * j.val = j.val; omega

/-! ## A block read off ANY array (a block is the array precomposed with the placement above) -/

/-- The feature block at point t, read off A: entry (p, k) is A at row 5000·t + p, lane k. -/
theorem featBlock_read (A : S100000x64.Idx → EReal) (t : Fin cfg0.N) (p : Fin 5000) (k : Fin 64) (r : Fin 100000)
    (hr : r.val = t.val * 5000 + p.val) :
    (((cfg0.win 0).blk t).view.read (Elt Ideal) A : S5000x64.Idx → EReal) (ix2 p k) = A (ix2 r k) := by
  show A (((cfg0.win 0).blk t).view.emb (ix2 p k)) = A (ix2 r k)
  rw [featBlock_emb t p k r hr]

/-- The weight block, read off W, is W. -/
theorem wtBlock_read (W : S64x64.Idx → EReal) (t : Fin cfg0.N) (k j : Fin 64) :
    (((cfg0.win 1).blk t).view.read (Elt Ideal) W : S64x64.Idx → EReal) (ix2 k j) = W (ix2 k j) := by
  show W (((cfg0.win 1).blk t).view.emb (ix2 k j)) = W (ix2 k j)
  rw [wtBlock_emb t k j]

/-- The bias block, read off a row R, is R … -/
theorem biasBlock_read (R : S1x64.Idx → EReal) (t : Fin cfg0.N) (j : Fin 64) :
    (((cfg0.win 2).blk t).view.read (Elt Ideal) R : S1x64.Idx → EReal) (ix2 (0 : Fin 1) j) = R (ix2 (0 : Fin 1) j) := by
  show R (((cfg0.win 2).blk t).view.emb (ix2 (0 : Fin 1) j)) = R (ix2 (0 : Fin 1) j)
  rw [biasBlock_emb t j]

/-- … and so is the scale block … -/
theorem scaleBlock_read (R : S1x64.Idx → EReal) (t : Fin cfg0.N) (j : Fin 64) :
    (((cfg0.win 3).blk t).view.read (Elt Ideal) R : S1x64.Idx → EReal) (ix2 (0 : Fin 1) j) = R (ix2 (0 : Fin 1) j) := by
  show R (((cfg0.win 3).blk t).view.emb (ix2 (0 : Fin 1) j)) = R (ix2 (0 : Fin 1) j)
  rw [scaleBlock_emb t j]

/-- … and the shift block. -/
theorem shiftBlock_read (R : S1x64.Idx → EReal) (t : Fin cfg0.N) (j : Fin 64) :
    (((cfg0.win 4).blk t).view.read (Elt Ideal) R : S1x64.Idx → EReal) (ix2 (0 : Fin 1) j) = R (ix2 (0 : Fin 1) j) := by
  show R (((cfg0.win 4).blk t).view.emb (ix2 (0 : Fin 1) j)) = R (ix2 (0 : Fin 1) j)
  rw [shiftBlock_emb t j]

/-! ## What the body stores, over ANY arrays

The body's stored value at a block entry is the specification at the entry's place in the result array — whatever
the five arrays are that the blocks were read off. -/

/-- With blocks read off arrays A, W and rows Rb, Rg, Rs, the body stores at entry y = (p, q) of point t's block the
    specification over those arrays at y's place in the result array, row 5000·t + p and lane q: the row of the
    linear layer the body forms from its blocks is that row of the whole arrays. -/
theorem stored_generic (A : S100000x64.Idx → EReal) (W : S64x64.Idx → EReal) (Rb Rg Rs : S1x64.Idx → EReal)
    (t : Fin cfg0.N) (y : ((cfg0.win 5).xblock (grid0.coords t)).Idx) :
    k0_pay1 (F := Ideal) (((cfg0.win 0).blk t).view.read (Elt Ideal) A) (((cfg0.win 1).blk t).view.read (Elt Ideal) W)
        (((cfg0.win 2).blk t).view.read (Elt Ideal) Rb) (((cfg0.win 3).blk t).view.read (Elt Ideal) Rg)
        (((cfg0.win 4).blk t).view.read (Elt Ideal) Rs) ((cfg0.win 5).xinj (grid0.coords t) y)
      = G A W (fun j => Rb (ix2 (0 : Fin 1) j)) (fun j => Rg (ix2 (0 : Fin 1) j)) (fun j => Rs (ix2 (0 : Fin 1) j))
          (((cfg0.win 5).blk t).view.emb y) := by
  have hN : t.val < 20 := Nat.lt_of_lt_of_eq t.isLt N_0
  have hp : (y 0).val < 5000 := (y 0).isLt
  have hq : (y 1).val < 64 := (y 1).isLt
  obtain ⟨p, hpv⟩ : ∃ p : Fin 5000, p.val = (y 0).val := ⟨⟨(y 0).val, hp⟩, rfl⟩
  obtain ⟨q, hqv⟩ : ∃ q : Fin 64, q.val = (y 1).val := ⟨⟨(y 1).val, hq⟩, rfl⟩
  obtain ⟨r, hr⟩ : ∃ r : Fin 100000, r.val = t.val * 5000 + p.val := ⟨⟨t.val * 5000 + p.val, by omega⟩, rfl⟩
  have e1 : (cfg0.win 5).xinj (grid0.coords t) y = (ix2 p q : S5000x64.Idx) := by
    funext a; apply Fin.ext
    match a with
    | ⟨0, _⟩ => exact hpv.symm
    | ⟨1, _⟩ => exact hqv.symm
  have e2 : ((cfg0.win 5).blk t).view.emb y = (ix2 r q : S100000x64.Idx) := by
    obtain ⟨-, -, -, -, -, -, -, -, -, -, e0, e1⟩ := index_maps t
    funext a; apply Fin.ext
    match a with
    | ⟨0, _⟩ => show win0_5.index t (0 : Fin 2) * 5000 + 1 * (y 0).val = r.val; omega
    | ⟨1, _⟩ => show win0_5.index t (1 : Fin 2) * 64 + 1 * (y 1).val = q.val; omega
  rw [e1, e2, G_apply]
  refine (Payload.pay_apply _ _ _ _ _ p q).trans ?_
  simp only [fun k => featBlock_read A t p k r hr, wtBlock_read W t, biasBlock_read Rb t, scaleBlock_read Rg t,
    shiftBlock_read Rs t]
  rfl

/-! ## The kernel's run -/

/-- The arrays as the kernel finds them (window w's array, for w = 0 … 4), with their index types spelt out. -/
abbrev feat (c : Dev nD) : S100000x64.Idx → EReal := V m c (Pipeline.arrRef spec0 0)
abbrev wt (c : Dev nD) : S64x64.Idx → EReal := V m c (Pipeline.arrRef spec0 1)
abbrev biasRow (c : Dev nD) : S1x64.Idx → EReal := V m c (Pipeline.arrRef spec0 2)
abbrev scaleRow (c : Dev nD) : S1x64.Idx → EReal := V m c (Pipeline.arrRef spec0 3)
abbrev shiftRow (c : Dev nD) : S1x64.Idx → EReal := V m c (Pipeline.arrRef spec0 4)

/-- The specification over the arrays as the kernel finds them. -/
abbrev spec (c : Dev nD) : S100000x64.Idx → EReal :=
  G (feat m c) (wt m c) (fun j => biasRow m c (ix2 (0 : Fin 1) j)) (fun j => scaleRow m c (ix2 (0 : Fin 1) j))
    (fun j => shiftRow m c (ix2 (0 : Fin 1) j))

/-- WHAT POINT t WRITES BACK is block t of the specification. -/
theorem flushed_eq (c : Dev nD) (t : Fin cfg0.N) :
    (dats m 0 c).flushed 5 t = ((cfg0.win 5).blk t).view.read (Elt Ideal) (spec m c) := by
  rw [Value.flushed5]
  unfold out0_5
  rw [View.canon_unit_zero zero_offsets]
  simp only [View.ld_unit_zero (S := S5000x64) zero_offsets, View.ld_unit_zero (S := S64x64) zero_offsets,
    View.ld_unit_zero (S := S1x64) zero_offsets]
  unfold iblk
  show _ = ((cfg0.win 5).blk t).view.read (Elt Ideal)
    (G (V m c (Pipeline.arrRef spec0 0)) (V m c (Pipeline.arrRef spec0 1))
      (fun j => V m c (Pipeline.arrRef spec0 2) (ix2 (0 : Fin 1) j))
      (fun j => V m c (Pipeline.arrRef spec0 3) (ix2 (0 : Fin 1) j))
      (fun j => V m c (Pipeline.arrRef spec0 4) (ix2 (0 : Fin 1) j)))
  -- from here on the five arrays are arbitrary
  generalize V m c (Pipeline.arrRef spec0 0) = A
  generalize V m c (Pipeline.arrRef spec0 1) = W
  generalize V m c (Pipeline.arrRef spec0 2) = Rb
  generalize V m c (Pipeline.arrRef spec0 3) = Rg
  generalize V m c (Pipeline.arrRef spec0 4) = Rs
  funext y
  rw [View.read_apply]
  refine Eq.trans ?_ (cast_eq _ _).symm
  show k0_pay1 (F := Ideal) _ _ _ _ _ ((win0 5).xinj (grid0.coords t) y) = _
  exact stored_generic A W Rb Rg Rs t y

/-- An index of the result array is in point t's block iff each coordinate is in the block's range. -/
theorem mem_outBlock (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v17).slice (win0_5.rect t)).set ↔ _
  rw [View.set_slice_whole, Rect.mem_set_unit]
  exact Iff.rfl

/-- Every entry of the result array lies in some point's block: row r in block r / 5000. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hlt : (i 0).val / 5000 < cfg0.N := Nat.lt_of_lt_of_eq (by omega : (i 0).val / 5000 < 20) N_0.symm
  obtain ⟨-, -, -, -, -, -, -, -, -, -, e0, e1⟩ := index_maps ⟨(i 0).val / 5000, hlt⟩
  refine ⟨⟨(i 0).val / 5000, hlt⟩, flush0_5 _, ?_⟩
  rw [mem_outBlock]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 64 ≤ (i 1).val
      ∧ (i 1).val < win0_5.index ⟨(i 0).val / 5000, hlt⟩ (1 : Fin 2) * 64 + 64
    rw [e1]
    omega

/-- THE RESULT ARRAY after the run is the specification over the arrays as the kernel finds them. -/
theorem final (c : Dev nD) : (dats m 0 c).arrAt 5 cfg0.N = spec m c :=
  (dats m 0 c).arrAt_eq_of_cover 5 (spec m c) (fun t _ => flushed_eq m c t) covered

/-- The kernel's run: the result array ends at the specification, the arguments unchanged. -/
theorem run : θ_run defs (onTc (τ := τ) (main (F := Ideal))) ⟨m, fun _ => 0, ρ⟩ fun r => ∀ c : Dev nD,
      r.2.mem ((c : Thread nD τ).loc main_v17) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.HostPrefix.lean ====
/-
  The arrays the kernel finds when its region starts, as functions of the program's arguments.

  Before the region the program gathers feature rows by the edge's source node, scales them by the edge value, and
  adds them into the rows of the edge's target node; transposes the weight; and reshapes the bias, scale and shift
  vectors to single rows. The reference performs the same gather, scaling, accumulation and transposition, operation
  for operation, so the aggregated features and the transposed weight are stated here as the reference's own stages
  of the arguments — the accumulation is never opened. A [64] vector reshaped to [1, 64] reads, at (0, j), the vector
  at j.
-/
import proofs.«143825_j69415261437959_1_alg».proof.Proof.Gen.KernelIdeal.Frame
import proofs.«143825_j69415261437959_1_alg».proof.Proof.Gen.ReferenceIdeal.Read
import proofs.«143825_j69415261437959_1_alg».proof.Proof.Blocks
import Idealize.ShloMosaic.Lib.StableHlo.Run
import Idealize.ShloMosaic.Lib.ValueIdx
import Idealize.ShloMosaic.Lib.ValueLayout

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx Cert.GcnSpec

variable (m : (ℓ : Loc nD τ sig) → Buf (Elt Ideal) ℓ)

/-! ## Which buffer each input window stages -/

theorem window0 : Pipeline.arrRef spec0 0 = main_v12 := rfl
theorem window1 : Pipeline.arrRef spec0 1 = main_v13 := rfl
theorem window2 : Pipeline.arrRef spec0 2 = main_v14 := rfl
theorem window3 : Pipeline.arrRef spec0 3 = main_v15 := rfl
theorem window4 : Pipeline.arrRef spec0 4 = main_v16 := rfl

/-- The contents found at a buffer depend on the buffer only. -/
theorem found_congr (c : Dev nD) {b b' : Ref sig .tc} (h : b = b') : HEq (V m c b) (V m c b') := by subst h; rfl

/-! ## The buffers' contents when the region starts -/

/-- The aggregated features are the reference's aggregation stage of the four graph arguments. -/
theorem feat_found (c : Dev nD) :
    (V m c main_v12 : S100000x64.Idx → EReal)
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]
  after_results
  rfl

/-- The weight is the reference's transposition stage of the weight argument. -/
theorem wt_found (c : Dev nD) :
    (V m c main_v13 : S64x64.Idx → EReal)
      = Cert.ReferenceIdeal.Read.val_main_v13 (F := Ideal) (m ((c : Thread nD τ).loc main_arg4)) := by
  dsimp only [Gen.V, Gen.hostOps0]
  after_results
  rfl

/-- The bias row is the bias argument reshaped to [1, 64] … -/
theorem bias_found (c : Dev nD) :
    (V m c main_v14 : S1x64.Idx → EReal)
      = shapeCast S1x64 (m ((c : Thread nD τ).loc main_arg5) : S64.Idx → EReal) shapeCasts_S64_S1x64 := by
  dsimp only [Gen.V, Gen.hostOps0]
  after_results
  rfl

/-- … the scale row the scale argument reshaped … -/
theorem scale_found (c : Dev nD) :
    (V m c main_v15 : S1x64.Idx → EReal)
      = shapeCast S1x64 (m ((c : Thread nD τ).loc main_arg6) : S64.Idx → EReal) shapeCasts_S64_S1x64 := by
  dsimp only [Gen.V, Gen.hostOps0]
  after_results
  rfl

/-- … and the shift row the shift argument reshaped. -/
theorem shift_found (c : Dev nD) :
    (V m c main_v16 : S1x64.Idx → EReal)
      = shapeCast S1x64 (m ((c : Thread nD τ).loc main_arg7) : S64.Idx → EReal) shapeCasts_S64_S1x64 := by
  dsimp only [Gen.V, Gen.hostOps0]
  after_results
  rfl

/-! ## The arrays the windows stage, as functions of the arguments -/

theorem feat_eq (c : Dev nD) :
    Blocks.feat m c
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) :=
  (eq_of_heq (found_congr m c window0)).trans (feat_found m c)

theorem wt_eq (c : Dev nD) :
    Blocks.wt m c = Cert.ReferenceIdeal.Read.val_main_v13 (F := Ideal) (m ((c : Thread nD τ).loc main_arg4)) :=
  (eq_of_heq (found_congr m c window1)).trans (wt_found m c)

/-- The bias row reads, at (0, j), the bias argument at j. -/
theorem biasRow_eq (c : Dev nD) (j : Fin 64) :
    Blocks.biasRow m c (ix2 (0 : Fin 1) j) = (m ((c : Thread nD τ).loc main_arg5) : S64.Idx → EReal) (ix1 j) := by
  have e : Blocks.biasRow m c = (V m c main_v14 : S1x64.Idx → EReal) := eq_of_heq (found_congr m c window2)
  rw [e, bias_found]
  exact shapeCast_a_1a_apply _ _ (0 : Fin 1) j

/-- The scale row reads, at (0, j), the scale argument at j. -/
theorem scaleRow_eq (c : Dev nD) (j : Fin 64) :
    Blocks.scaleRow m c (ix2 (0 : Fin 1) j) = (m ((c : Thread nD τ).loc main_arg6) : S64.Idx → EReal) (ix1 j) := by
  have e : Blocks.scaleRow m c = (V m c main_v15 : S1x64.Idx → EReal) := eq_of_heq (found_congr m c window3)
  rw [e, scale_found]
  exact shapeCast_a_1a_apply _ _ (0 : Fin 1) j

/-- The shift row reads, at (0, j), the shift argument at j. -/
theorem shiftRow_eq (c : Dev nD) (j : Fin 64) :
    Blocks.shiftRow m c (ix2 (0 : Fin 1) j) = (m ((c : Thread nD τ).loc main_arg7) : S64.Idx → EReal) (ix1 j) := by
  have e : Blocks.shiftRow m c = (V m c main_v16 : S1x64.Idx → EReal) := eq_of_heq (found_congr m c window4)
  rw [e, shift_found]
  exact shapeCast_a_1a_apply _ _ (0 : Fin 1) j

/-- The specification over the arrays the kernel finds is the specification over the reference's stages of the
    arguments. -/
theorem spec_eq (c : Dev nD) :
    Blocks.spec m c
      = G (Cert.ReferenceIdeal.Read.val_main_v12 (F := Ideal) (m ((c : Thread nD τ).loc main_arg0))
            (m ((c : Thread nD τ).loc main_arg1)) (m ((c : Thread nD τ).loc main_arg2)) (m ((c : Thread nD τ).loc main_arg3)))
          (Cert.ReferenceIdeal.Read.val_main_v13 (F := Ideal) (m ((c : Thread nD τ).loc main_arg4)))
          (fun j => (m ((c : Thread nD τ).loc main_arg5) : S64.Idx → EReal) (ix1 j))
          (fun j => (m ((c : Thread nD τ).loc main_arg6) : S64.Idx → EReal) (ix1 j))
          (fun j => (m ((c : Thread nD τ).loc main_arg7) : S64.Idx → EReal) (ix1 j)) :=
  congr (congr (congr (congr (congrArg G (feat_eq m c)) (wt_eq m c)) (funext (biasRow_eq m c)))
    (funext (scaleRow_eq m c))) (funext (shiftRow_eq m c))

end Cert.KernelIdeal.HostPrefix

end
-- ==== Proof.RefSpec.lean ====
/-
  The reference computes the specification.

  Read one operation at a time, the reference's result at entry (r, j) is assembled from: the linear layer's row
  (the product of the aggregated features with the transposed weight, plus the bias broadcast over rows), that row's
  mean (its sum over the 64 lanes divided by 64), the row's variance (the sum of squared deviations divided by 64),
  and finally the normalised, scaled, shifted and rectified entry. Each stage is identified with the corresponding
  piece of the specification; the only arithmetic fact used is that the sums start from the zero word, which is 0.
  The aggregated features and the transposed weight are carried as the stages that produce them, unopened.
-/
import proofs.«143825_j69415261437959_1_alg».proof.Proof.Gen.ReferenceIdeal.Read
import proofs.«143825_j69415261437959_1_alg».proof.Proof.Spec
import Idealize.ShloMosaic.Lib.ValueIdx
import Idealize.ShloMosaic.PureOps.Ideal.Laws

noncomputable section

namespace Cert.ReferenceIdeal.RefSpec

open Cert.ReferenceIdeal Cert.ReferenceIdeal.Read Idealize.ShloMosaic Idealize.ShloMosaic.ValueIdx Cert.GcnSpec

/-! ## Where each stage reads its operand, by coordinates -/

/-- The product at (r, j) reads the left operand at (r, k) … -/
theorem lhs_idx (r : Fin 100000) (j k : Fin 64) : lidx_main_v14 (ix2 r j) k = ix2 r k :=
  funext fun a => Fin.ext (by match a with | ⟨0, _⟩ => rfl | ⟨1, _⟩ => rfl)
/-- … and the right operand at (k, j). -/
theorem rhs_idx (r : Fin 100000) (j k : Fin 64) : ridx_main_v14 (ix2 r j) k = ix2 k j :=
  funext fun a => Fin.ext (by match a with | ⟨0, _⟩ => rfl | ⟨1, _⟩ => rfl)
/-- A [64] vector broadcast to a row and then over the rows reads, at (r, j), the vector at j: the bias … -/
theorem bias_idx (r : Fin 100000) (j : Fin 64) : idx_main_v15 (idx_main_v16 (ix2 r j)) = ix1 j :=
  funext fun a => Fin.ext (by match a with | ⟨0, _⟩ => rfl)
/-- … the scale … -/
theorem scale_idx (r : Fin 100000) (j : Fin 64) : idx_main_v36 (idx_main_v37 (ix2 r j)) = ix1 j :=
  funext fun a => Fin.ext (by match a with | ⟨0, _⟩ => rfl)
/-- … and the shift. -/
theorem shift_idx (r : Fin 100000) (j : Fin 64) : idx_main_v39 (idx_main_v40 (ix2 r j)) = ix1 j :=
  funext fun a => Fin.ext (by match a with | ⟨0, _⟩ => rfl)
/-- The first lane sum, kept as a column, reads at (r, 0) the entries (r, k) … -/
theorem sum1_idx (r : Fin 100000) (u : Fin 1) (k : Fin 64) : idx_main_v18 (idx_main_v19 (ix2 r u)) k = ix2 r k :=
  funext fun a => Fin.ext (by match a with | ⟨0, _⟩ => rfl | ⟨1, _⟩ => rfl)
/-- … and so does the second. -/
theorem sum2_idx (r : Fin 100000) (u : Fin 1) (k : Fin 64) : idx_main_v25 (idx_main_v26 (ix2 r u)) k = ix2 r k :=
  funext fun a => Fin.ext (by match a with | ⟨0, _⟩ => rfl | ⟨1, _⟩ => rfl)
/-- A column broadcast over the lanes reads, at (r, j), the column at (r, 0): the mean, for the variance … -/
theorem col_idx22 (r : Fin 100000) (j : Fin 64) : idx_main_v22 (ix2 r j) = ix2 r (0 : Fin 1) :=
  funext fun a => Fin.ext (by match a with | ⟨0, _⟩ => rfl | ⟨1, _⟩ => rfl)
/-- … the mean again, for the normalised value … -/
theorem col_idx29 (r : Fin 100000) (j : Fin 64) : idx_main_v29 (ix2 r j) = ix2 r (0 : Fin 1) :=
  funext fun a => Fin.ext (by match a with | ⟨0, _⟩ => rfl | ⟨1, _⟩ => rfl)
/-- … and the reciprocal standard deviation. -/
theorem col_idx34 (r : Fin 100000) (j : Fin 64) : idx_main_v34 (ix2 r j) = ix2 r (0 : Fin 1) :=
  funext fun a => Fin.ext (by match a with | ⟨0, _⟩ => rfl | ⟨1, _⟩ => rfl)

/-! ## The stages -/

variable (x0 : (⟨S100000x64, .f32⟩ : BufTy).Contents (Elt Ideal)) (x1 x2 : (⟨S1600000, .i32⟩ : BufTy).Contents (Elt Ideal))
  (x3 : (⟨S1600000, .f32⟩ : BufTy).Contents (Elt Ideal)) (x4 : (⟨S64x64, .f32⟩ : BufTy).Contents (Elt Ideal))
  (x5 x6 x7 : (⟨S64, .f32⟩ : BufTy).Contents (Elt Ideal))

/-- The linear layer at (r, j): row r of the aggregated features against column j of the transposed weight, plus the
    bias at j. -/
theorem lin_eq (r : Fin 100000) (j : Fin 64) :
    val_main_v17 (F := Ideal) x0 x1 x2 x3 x4 x5 (ix2 r j)
      = lin (val_main_v12 (F := Ideal) x0 x1 x2 x3) (val_main_v13 (F := Ideal) x4) (fun j => x5 (ix1 j)) r j := by
  rw [val_main_v17_apply, val_main_v14_apply, val_main_v16_apply, val_main_v15_apply, bias_idx]
  simp only [lhs_idx, rhs_idx]
  rfl

/-- Row r of the linear layer, as a function of the lane. -/
theorem linRow_eq (r : Fin 100000) :
    (fun j => val_main_v17 (F := Ideal) x0 x1 x2 x3 x4 x5 (ix2 r j))
      = lin (val_main_v12 (F := Ideal) x0 x1 x2 x3) (val_main_v13 (F := Ideal) x4) (fun j => x5 (ix1 j)) r :=
  funext fun j => lin_eq x0 x1 x2 x3 x4 x5 r j

/-- The row mean, kept as a column: at (r, 0) it is the mean of row r of the linear layer. -/
theorem mean_eq (r : Fin 100000) (u : Fin 1) :
    val_main_v21 (F := Ideal) x0 x1 x2 x3 x4 x5 (ix2 r u)
      = mean (fun j => val_main_v17 (F := Ideal) x0 x1 x2 x3 x4 x5 (ix2 r j)) := by
  rw [val_main_v21_apply, val_main_v19_apply, val_main_v18_apply, val_main_v20_apply, val_main_cst_2_apply,
    val_main_cst_1_apply]
  simp only [sum1_idx, Ideal.hostDivf_def, Ideal.ofBits_def, Ideal.ofBits_zero_f32, zero_add]
  rfl

/-- The deviation from the row mean at (r, j), as the reference forms it for the variance … -/
theorem dev_eq (r : Fin 100000) (j : Fin 64) :
    val_main_v23 (F := Ideal) x0 x1 x2 x3 x4 x5 (ix2 r j)
      = val_main_v17 (F := Ideal) x0 x1 x2 x3 x4 x5 (ix2 r j)
        - mean (fun j => val_main_v17 (F := Ideal) x0 x1 x2 x3 x4 x5 (ix2 r j)) := by
  rw [val_main_v23_apply, val_main_v22_apply, col_idx22, mean_eq]
  rfl

/-- … and again for the normalised value: the same deviation. -/
theorem dev_eq' (r : Fin 100000) (j : Fin 64) :
    val_main_v30 (F := Ideal) x0 x1 x2 x3 x4 x5 (ix2 r j)
      = val_main_v17 (F := Ideal) x0 x1 x2 x3 x4 x5 (ix2 r j)
        - mean (fun j => val_main_v17 (F := Ideal) x0 x1 x2 x3 x4 x5 (ix2 r j)) := by
  rw [val_main_v30_apply, val_main_v29_apply, col_idx29, mean_eq]
  rfl

/-- The squared deviation at (r, k). -/
theorem sq_eq (r : Fin 100000) (k : Fin 64) :
    val_main_v24 (F := Ideal) x0 x1 x2 x3 x4 x5 (ix2 r k)
      = (val_main_v17 (F := Ideal) x0 x1 x2 x3 x4 x5 (ix2 r k)
          - mean (fun j => val_main_v17 (F := Ideal) x0 x1 x2 x3 x4 x5 (ix2 r j)))
        * (val_main_v17 (F := Ideal) x0 x1 x2 x3 x4 x5 (ix2 r k)
          - mean (fun j => val_main_v17 (F := Ideal) x0 x1 x2 x3 x4 x5 (ix2 r j))) := by
  rw [val_main_v24_apply, dev_eq]
  rfl

/-- The row variance, kept as a column: at (r, 0) it is the variance of row r of the linear layer. -/
theorem variance_eq (r : Fin 100000) (u : Fin 1) :
    val_main_v28 (F := Ideal) x0 x1 x2 x3 x4 x5 (ix2 r u)
      = variance (fun j => val_main_v17 (F := Ideal) x0 x1 x2 x3 x4 x5 (ix2 r j)) := by
  rw [val_main_v28_apply, val_main_v26_apply, val_main_v25_apply, val_main_v27_apply, val_main_cst_4_apply,
    val_main_cst_3_apply]
  simp only [sum2_idx, sq_eq, Ideal.hostDivf_def, Ideal.ofBits_def, Ideal.ofBits_zero_f32, zero_add]
  rfl

/-- THE REFERENCE IS THE SPECIFICATION: its result stage, as a function of the arguments, is `G` of the aggregated
    features, the transposed weight, the bias, the scale and the shift. -/
theorem result_eq :
    val_main_v42 (F := Ideal) x0 x1 x2 x3 x4 x5 x6 x7
      = G (val_main_v12 (F := Ideal) x0 x1 x2 x3) (val_main_v13 (F := Ideal) x4) (fun j => x5 (ix1 j)) (fun j => x6 (ix1 j))
          (fun j => x7 (ix1 j)) := by
  funext i
  obtain ⟨r, j, rfl⟩ : ∃ (r : Fin 100000) (j : Fin 64), i = ix2 r j := ⟨i 0, i 1, eq_ix2 i⟩
  rw [G_apply, val_main_v42_apply, val_main_v41_apply, val_main_v38_apply, val_main_v35_apply, dev_eq',
    val_main_v34_apply, val_main_v33_apply, val_main_v32_apply, col_idx34, variance_eq, val_main_v31_apply,
    val_main_cst_5_apply, val_main_v37_apply, val_main_v36_apply, scale_idx, val_main_v40_apply, val_main_v39_apply,
    shift_idx, val_main_call0_v0_apply, val_main_call0_cst_apply, linRow_eq, lin_eq]
  rfl

end Cert.ReferenceIdeal.RefSpec

end
-- ==== Proof.lean ====
/- The proof of `Cert.Claim`: a graph-convolution layer — edge-weighted neighbour aggregation, a linear map, layer
   normalisation over the 64 lanes and a rectifier — computed by a kernel that tiles the 100000 rows into 20 blocks,
   against a reference that works on whole arrays.

   On the extended reals the two programs are one function of the arguments, entry by entry (Proof/Spec.lean): the
   aggregation before the region is the reference's own, operation for operation (Proof/HostPrefix.lean); each block
   the kernel writes back is a block of that function, because a row's linear layer, mean and variance involve that
   row only, and the blocks cover every row (Proof/Payload.lean, Proof/Blocks.lean); and the reference's stages
   compose to the same function (Proof/RefSpec.lean). No law beyond reading a matrix product and a lane sum as finite
   sums is needed, so finiteness of the inputs is never used. The three frames are the generated runs; nothing was
   rewritten by the idealisation, so that conjunct is trivial. -/
import proofs.«143825_j69415261437959_1_alg».proof.Defs
import proofs.«143825_j69415261437959_1_alg».proof.Proof.Gen.Kernel
import proofs.«143825_j69415261437959_1_alg».proof.Proof.Gen.Kernel.Skeleton
import proofs.«143825_j69415261437959_1_alg».proof.Proof.Gen.Kernel.Launch
import proofs.«143825_j69415261437959_1_alg».proof.Proof.Gen.Kernel.Points
import proofs.«143825_j69415261437959_1_alg».proof.Proof.Gen.Kernel.Frame
import proofs.«143825_j69415261437959_1_alg».proof.Proof.Gen.KernelIdeal
import proofs.«143825_j69415261437959_1_alg».proof.Proof.Gen.KernelIdeal.Skeleton
import proofs.«143825_j69415261437959_1_alg».proof.Proof.Gen.KernelIdeal.Launch
import proofs.«143825_j69415261437959_1_alg».proof.Proof.Gen.KernelIdeal.Points
import proofs.«143825_j69415261437959_1_alg».proof.Proof.Gen.KernelIdeal.Frame
import proofs.«143825_j69415261437959_1_alg».proof.Proof.Gen.KernelIdeal.Value
import proofs.«143825_j69415261437959_1_alg».proof.Proof.Gen.ReferenceIdeal
import proofs.«143825_j69415261437959_1_alg».proof.Proof.Gen.ReferenceIdeal.Run
import proofs.«143825_j69415261437959_1_alg».proof.Proof.Gen.ReferenceIdeal.Read
import proofs.«143825_j69415261437959_1_alg».proof.Proof.Gen.Pre_finite_inputs
import proofs.«143825_j69415261437959_1_alg».proof.Proof.Blocks
import proofs.«143825_j69415261437959_1_alg».proof.Proof.HostPrefix
import proofs.«143825_j69415261437959_1_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the result array at the specification of the arguments, which agree. -/
theorem algebraic : Cert.algebraic_KernelIdeal_ReferenceIdeal := by
  intro m ρ m' ρ' _ hagree
  refine ⟨Cert.KernelIdeal.Blocks.spec m, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefSpec.result_eq,
    Cert.KernelIdeal.HostPrefix.spec_eq m c,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
